-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x64x128 : Shape := ⟨4, ![4, 64, 64, 128]⟩
abbrev S128x16 : Shape := ⟨2, ![128, 16]⟩
abbrev S128x128 : Shape := ⟨2, ![128, 128]⟩
abbrev S_ : Shape := ⟨0, ![]⟩

class Facts : Prop where
  bcast_S_S4x64x64x128 : S_.BroadcastsInDim S4x64x64x128 (![] : Fin 0 → Fin S4x64x64x128.rank)
  reducesTo_S4x64x64x128_S_d0_1_2_3 : S4x64x64x128.ReducesTo [0, 1, 2, 3] S_
  h_S_ : 0 < S_.numel
  bcast_S_S128x16 : S_.BroadcastsInDim S128x16 (![] : Fin 0 → Fin S128x16.rank)
  reducesTo_S128x16_S_d0_1 : S128x16.ReducesTo [0, 1] S_
  bcast_S_S128x128 : S_.BroadcastsInDim S128x128 (![] : Fin 0 → Fin S128x128.rank)
  reducesTo_S128x128_S_d0_1 : S128x128.ReducesTo [0, 1] S_
  reducesTo_S_S_d : S_.ReducesTo [] S_

variable [Facts]

def fn_part1 {F : FTy → Type} [FloatOps F] (main_arg4 : FVec F S_ .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S4x64x64x128 .f32) (main_arg1 : FVec F S128x16 .f32) (main_arg2 : FVec F S128x16 .f32) (main_arg3 : FVec F S128x128 .f32) (main_arg4 : FVec F S_ .f32) : IVec S_ 1 :=
  let main_v0 : FVec F S4x64x64x128 .f32 := Host.absf main_arg0
  let main_cst : FVec F S_ .f32 := constant S_ .f32 0x7F800000#32
  let main_v1 : FVec F S4x64x64x128 .f32 := broadcastInDim S4x64x64x128 ![] bcast_S_S4x64x64x128 main_cst
  let main_v2 : IVec S4x64x64x128 1 := cmpf .olt main_v0 main_v1
  let main_c : IVec S_ 1 := constantI S_ 1 1#1
  let main_v3 : IVec S_ 1 := (fun x v => Host.reduce IntOp.andi x v reducesTo_S4x64x64x128_S_d0_1_2_3 h_S_) main_v2 main_c
  let main_v4 : FVec F S128x16 .f32 := Host.absf main_arg1
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S4x64x64x128 : Shape := ⟨4, ![4, 64, 64, 128]⟩
abbrev S128x16 : Shape := ⟨2, ![128, 16]⟩
abbrev S128x128 : Shape := ⟨2, ![128, 128]⟩
abbrev S_ : Shape := ⟨0, ![]⟩
abbrev S4x4096x128 : Shape := ⟨3, ![4, 4096, 128]⟩
abbrev S4x128x4096 : Shape := ⟨3, ![4, 128, 4096]⟩
abbrev S1x4096x128 : Shape := ⟨3, ![1, 4096, 128]⟩
abbrev S1x128x256 : Shape := ⟨3, ![1, 128, 256]⟩
abbrev S4096x16 : Shape := ⟨2, ![4096, 16]⟩
abbrev S4096x128 : Shape := ⟨2, ![4096, 128]⟩
abbrev S1x256x128 : Shape := ⟨3, ![1, 256, 128]⟩
abbrev S256x128 : Shape := ⟨2, ![256, 128]⟩
abbrev S256x16 : Shape := ⟨2, ![256, 16]⟩
abbrev S256x4096 : Shape := ⟨2, ![256, 4096]⟩
abbrev S256 : Shape := ⟨1, ![256]⟩
abbrev S256x1 : Shape := ⟨2, ![256, 1]⟩
abbrev S128x256 : Shape := ⟨2, ![128, 256]⟩

abbrev nBuf : Space → Nat
  | .hbm => 11
  | .vmem => 9
  | .smem => 0
  | _ => 0

abbrev bufTy : (tb : Table) → Fin (tcTables nBuf tb) → BufTy
  | .hbm, ⟨0, _⟩ => ⟨S4x64x64x128, .f32⟩
  | .hbm, ⟨1, _⟩ => ⟨S128x16, .f32⟩
  | .hbm, ⟨2, _⟩ => ⟨S128x16, .f32⟩
  | .hbm, ⟨3, _⟩ => ⟨S128x128, .f32⟩
  | .hbm, ⟨4, _⟩ => ⟨S_, .f32⟩
  | .hbm, ⟨5, _⟩ => ⟨S4x4096x128, .f32⟩
  | .hbm, ⟨6, _⟩ => ⟨S4x128x4096, .f32⟩
  | .hbm, ⟨7, _⟩ => ⟨S4x64x64x128, .f32⟩
  | .hbm, ⟨8, _⟩ => ⟨S4x64x64x128, .f32⟩
  | .hbm, ⟨9, _⟩ => ⟨S4x64x64x128, .f32⟩
  | .hbm, ⟨10, _⟩ => ⟨S4x64x64x128, .f32⟩
  | .local _ .vmem, ⟨0, _⟩ => ⟨S1x4096x128, .f32⟩
  | .local _ .vmem, ⟨1, _⟩ => ⟨S1x4096x128, .f32⟩
  | .local _ .vmem, ⟨2, _⟩ => ⟨S128x16, .f32⟩
  | .local _ .vmem, ⟨3, _⟩ => ⟨S128x16, .f32⟩
  | .local _ .vmem, ⟨4, _⟩ => ⟨S128x128, .f32⟩
  | .local _ .vmem, ⟨5, _⟩ => ⟨S1x128x256, .f32⟩
  | .local _ .vmem, ⟨6, _⟩ => ⟨S1x128x256, .f32⟩
  | .local _ .vmem, ⟨7, _⟩ => ⟨S4096x16, .bf16⟩
  | .local _ .vmem, ⟨8, _⟩ => ⟨S4096x128, .bf16⟩
  | _, _ => ⟨S4x64x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x64x64x128_S4x4096x128 : S4x64x64x128.ShapeCasts S4x4096x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S128x128_S128x128_0_0 : ∀ a, (![0, 0] : Fin 2 → Nat) a + S128x128.size a ≤ S128x128.size a
  h_S128x128 : 0 < S128x128.numel
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  packedbf16_S4096x16_S4096x16_0_0 : (Rect.unit (s := S4096x16) ![0, 0] S4096x16.size inb_S4096x16_S4096x16_0_0).PackedRows (EltTy.packing .bf16)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  packedbf16_S4096x128_S4096x128_0_0 : (Rect.unit (s := S4096x128) ![0, 0] S4096x128.size inb_S4096x128_S4096x128_0_0).PackedRows (EltTy.packing .bf16)
  h_S1x256x128 : 0 < S1x256x128.numel
  shapeCasts_S1x256x128_S256x128 : S1x256x128.ShapeCasts S256x128
  reduces_S256x4096_S256 : S256x4096.Reduces [1] S256
  shapeCasts_S256_S256x1 : S256.ShapeCasts S256x1
  broadcasts_S256x1_S256x4096 : S256x1.Broadcasts S256x4096
  transposes_S256x128_p1_0_S128x256 : S256x128.Transposes [1, 0] S128x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  shapeCasts_S128x256_S1x128x256 : S128x256.ShapeCasts S1x128x256
  shapeCasts_S4x128x4096_S4x64x64x128 : S4x128x4096.ShapeCasts S4x64x64x128
  bcast_S_S4x64x64x128 : S_.BroadcastsInDim S4x64x64x128 (![] : Fin 0 → Fin S4x64x64x128.rank)
  dot_S4096x128_S128x16_S4096x16_1_0_0_1_n_n_wf : DotDims.WF S4096x128 S128x16 S4096x16 [1] [0] [0] [1] [] []
  dot_S4096x128_S128x128_S4096x128_1_0_0_1_n_n_wf : DotDims.WF S4096x128 S128x128 S4096x128 [1] [0] [0] [1] [] []
  dot_S256x128_S128x16_S256x16_1_0_0_1_n_n_wf : DotDims.WF S256x128 S128x16 S256x16 [1] [0] [0] [1] [] []
  dot_S256x16_S4096x16_S256x4096_1_1_0_0_n_n_wf : DotDims.WF S256x16 S4096x16 S256x4096 [1] [1] [0] [0] [] []
  dot_S256x4096_S4096x128_S256x128_1_0_0_1_n_n_wf : DotDims.WF S256x4096 S4096x128 S256x128 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256x128.size a ≤ S1x4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S4x4096x128.size a
  hwx0_0 : ∀ i : grid0.Coords, EltTy.bits .f32 = 32 ∨ (Rect.block (s := S4x4096x128) S1x4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x256.size a ≤ S4x128x4096.size a
  hwx0_4 : ∀ i : grid0.Coords, EltTy.bits .f32 = 32 ∨ (Rect.block (s := S4x128x4096) S1x128x256.size (cc0_transform_4 i) (hinb0_4 i)).WholeWords (EltTy.packing .f32)

variable [Facts₀]

def dot_S4096x128_S128x16_S4096x16_1_0_0_1_n_n : DotDims S4096x128 S128x16 S4096x16 where
  lhsContracting := [1]
  rhsContracting := [0]
  lhsNonContracting := [0]
  rhsNonContracting := [1]
  lhsBatch := []
  rhsBatch := []
  wf := dot_S4096x128_S128x16_S4096x16_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S256x128_S128x16_S256x16_1_0_0_1_n_n : DotDims S256x128 S128x16 S256x16 where
  lhsContracting := [1]
  rhsContracting := [0]
  lhsNonContracting := [0]
  rhsNonContracting := [1]
  lhsBatch := []
  rhsBatch := []
  wf := dot_S256x128_S128x16_S256x16_1_0_0_1_n_n_wf
def dot_S256x16_S4096x16_S256x4096_1_1_0_0_n_n : DotDims S256x16 S4096x16 S256x4096 where
  lhsContracting := [1]
  rhsContracting := [1]
  lhsNonContracting := [0]
  rhsNonContracting := [0]
  lhsBatch := []
  rhsBatch := []
  wf := dot_S256x16_S4096x16_S256x4096_1_1_0_0_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf

abbrev win0_0 : Pipeline.Window sig grid0 :=
  Pipeline.Window.ofSpec (Memref.whole main_v0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x64x64x128 : Shape := ⟨4, ![4, 64, 64, 128]⟩
abbrev S128x16 : Shape := ⟨2, ![128, 16]⟩
abbrev S128x128 : Shape := ⟨2, ![128, 128]⟩
abbrev S_ : Shape := ⟨0, ![]⟩
abbrev S4x4096x128 : Shape := ⟨3, ![4, 4096, 128]⟩
abbrev S4x4096x16 : Shape := ⟨3, ![4, 4096, 16]⟩
abbrev S4x4096x4096 : Shape := ⟨3, ![4, 4096, 4096]⟩
abbrev S4x4096 : Shape := ⟨2, ![4, 4096]⟩
abbrev S4x1x4096 : Shape := ⟨3, ![4, 1, 4096]⟩
abbrev S4x128x4096 : Shape := ⟨3, ![4, 128, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4x64x64x128, .f32⟩
  | .hbm, ⟨1, _⟩ => ⟨S128x16, .f32⟩
  | .hbm, ⟨2, _⟩ => ⟨S128x16, .f32⟩
  | .hbm, ⟨3, _⟩ => ⟨S128x128, .f32⟩
  | .hbm, ⟨4, _⟩ => ⟨S_, .f32⟩
  | .hbm, ⟨5, _⟩ => ⟨S4x4096x128, .f32⟩
  | .hbm, ⟨6, _⟩ => ⟨S4x4096x16, .f32⟩
  | .hbm, ⟨7, _⟩ => ⟨S4x4096x16, .f32⟩
  | .hbm, ⟨8, _⟩ => ⟨S4x4096x128, .f32⟩
  | .hbm, ⟨9, _⟩ => ⟨S4x4096x4096, .f32⟩
  | .hbm, ⟨10, _⟩ => ⟨S_, .f32⟩
  | .hbm, ⟨11, _⟩ => ⟨S4x4096, .f32⟩
  | .hbm, ⟨12, _⟩ => ⟨S_, .f32⟩
  | .hbm, ⟨13, _⟩ => ⟨S4x4096, .f32⟩
  | .hbm, ⟨14, _⟩ => ⟨S4x4096, .f32⟩
  | .hbm, ⟨15, _⟩ => ⟨S4x1x4096, .f32⟩
  | .hbm, ⟨16, _⟩ => ⟨S4x4096x4096, .f32⟩
  | .hbm, ⟨17, _⟩ => ⟨S4x4096x4096, .f32⟩
  | .hbm, ⟨18, _⟩ => ⟨S4x4096x4096, .f32⟩
  | .hbm, ⟨19, _⟩ => ⟨S_, .f32⟩
  | .hbm, ⟨20, _⟩ => ⟨S4x4096, .f32⟩
  | .hbm, ⟨21, _⟩ => ⟨S4x1x4096, .f32⟩
  | .hbm, ⟨22, _⟩ => ⟨S4x4096x4096, .f32⟩
  | .hbm, ⟨23, _⟩ => ⟨S4x4096x4096, .f32⟩
  | .hbm, ⟨24, _⟩ => ⟨S4x128x4096, .f32⟩
  | .hbm, ⟨25, _⟩ => ⟨S4x64x64x128, .f32⟩
  | .hbm, ⟨26, _⟩ => ⟨S4x64x64x128, .f32⟩
  | .hbm, ⟨27, _⟩ => ⟨S4x64x64x128, .f32⟩
  | .hbm, ⟨28, _⟩ => ⟨S4x64x64x128, .f32⟩
  | _, _ => ⟨S4x64x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  shapeCasts_S4x64x64x128_S4x4096x128 : S4x64x64x128.ShapeCasts S4x4096x128
  reducesTo_S4x4096x4096_S4x4096_d1 : S4x4096x4096.ReducesTo [1] S4x4096
  h_S_ : 0 < S_.numel
  bcast_S_S4x4096 : S_.BroadcastsInDim S4x4096 (![] : Fin 0 → Fin S4x4096.rank)
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  shapeCasts_S4x128x4096_S4x64x64x128 : S4x128x4096.ShapeCasts S4x64x64x128
  bcast_S_S4x64x64x128 : S_.BroadcastsInDim S4x64x64x128 (![] : Fin 0 → Fin S4x64x64x128.rank)
  dot_S4x4096x128_S128x16_S4x4096x16_2_0_01_1_n_n_wf : DotDims.WF S4x4096x128 S128x16 S4x4096x16 [2] [0] [0, 1] [1] [] []
  dot_S4x4096x128_S128x128_S4x4096x128_2_0_01_1_n_n_wf : DotDims.WF S4x4096x128 S128x128 S4x4096x128 [2] [0] [0, 1] [1] [] []
  dot_S4x4096x16_S4x4096x16_S4x4096x4096_2_2_1_1_0_0_wf : DotDims.WF S4x4096x16 S4x4096x16 S4x4096x4096 [2] [2] [1] [1] [0] [0]
  dot_S4x4096x128_S4x4096x4096_S4x128x4096_1_1_2_2_0_0_wf : DotDims.WF S4x4096x128 S4x4096x4096 S4x128x4096 [1] [1] [2] [2] [0] [0]

variable [Facts₀]

def dot_S4x4096x128_S128x16_S4x4096x16_2_0_01_1_n_n : DotDims S4x4096x128 S128x16 S4x4096x16 where
  lhsContracting := [2]
  rhsContracting := [0]
  lhsNonContracting := [0, 1]
  rhsNonContracting := [1]
  lhsBatch := []
  rhsBatch := []
  wf := dot_S4x4096x128_S128x16_S4x4096x16_2_0_01_1_n_n_wf
def dot_S4x4096x128_S128x128_S4x4096x128_2_0_01_1_n_n : DotDims S4x4096x128 S128x128 S4x4096x128 where
  lhsContracting := [2]
  rhsContracting := [0]
  lhsNonContracting := [0, 1]
  rhsNonContracting := [1]
  lhsBatch := []
  rhsBatch := []
  wf := dot_S4x4096x128_S128x128_S4x4096x128_2_0_01_1_n_n_wf
def dot_S4x4096x16_S4x4096x16_S4x4096x4096_2_2_1_1_0_0 : DotDims S4x4096x16 S4x4096x16 S4x4096x4096 where
  lhsContracting := [2]
  rhsContracting := [2]
  lhsNonContracting := [1]
  rhsNonContracting := [1]
  lhsBatch := [0]
  rhsBatch := [0]
  wf := dot_S4x4096x16_S4x4096x16_S4x4096x4096_2_2_1_1_0_0_wf
def dot_S4x4096x128_S4x4096x4096_S4x128x4096_1_1_2_2_0_0 : DotDims S4x4096x128 S4x4096x4096 S4x128x4096 where
  lhsContracting := [1]
  rhsContracting := [1]
  lhsNonContracting := [2]
  rhsNonContracting := [2]
  lhsBatch := [0]
  rhsBatch := [0]
  wf := dot_S4x4096x128_S4x4096x4096_S4x128x4096_1_1_2_2_0_0_wf

class Facts : Prop extends Facts₀ where

variable [Facts]
-- ==== Proof.Spec.lean ====
/-
  Self-attention over the flattened spatial axis, as one function of the argument arrays on the extended reals.

  With X the input flattened to [4, 4096, 128] (batch, position, channel) and three weight matrices:
    f[b,n,d]  = sum over c of X[b,n,c] * Wq[c,d]          (16 columns)
    g[b,m,d]  = sum over c of X[b,m,c] * Wk[c,d]          (16 columns)
    hv[b,n,e] = sum over c of X[b,n,c] * Wv[c,e]          (128 columns)
    score[b,n,m] = sum over d of f[b,n,d] * g[b,m,d]
  and, for each batch b and each column m, the softmax over the ROW index n:
    colMax[b,m]  = the maximum over n of score[b,n,m], folded from the float -infinity
    expo[b,n,m]  = exp (score[b,n,m] - colMax[b,m])
    colSum[b,m]  = sum over n of expo[b,n,m]
    beta[b,n,m]  = expo[b,n,m] / colSum[b,m]
  the attention output is
    att[b,c,m]   = sum over n of hv[b,n,c] * beta[b,n,m]   as an array [4, 128, 4096].

  Every operation is the exact one on the extended reals; the float -infinity is kept as its bit pattern's value, so
  that neither side of a comparison with this function ever evaluates it.
-/
import Idealize.ShloMosaic.PureOps.Ideal
import Idealize.ShloMosaic.Lib.ValueIdx
import Mathlib.Data.Finset.Fold

noncomputable section

open scoped BigOperators

namespace Cert.Attn

open Idealize.ShloMosaic Idealize.ShloMosaic.ValueIdx

/-- The flattened input [4, 4096, 128], a 16-column weight [128, 16], the value weight [128, 128], the output [4, 128, 4096]. -/
abbrev SX : Shape := ⟨3, ![4, 4096, 128]⟩
abbrev SWd : Shape := ⟨2, ![128, 16]⟩
abbrev SWv : Shape := ⟨2, ![128, 128]⟩
abbrev SA : Shape := ⟨3, ![4, 128, 4096]⟩

/-- The float -infinity, as the value of its bit pattern. -/
def negInf : EReal := Ideal.ofBits .f32 0xFF800000#32

section
variable (X : SX.Idx → EReal) (Wq Wk : SWd.Idx → EReal) (Wv : SWv.Idx → EReal)

/-- f = X Wq at (b, n, d). -/
def fq (b : Fin 4) (n : Fin 4096) (d : Fin 16) : EReal := ∑ c : Fin 128, X (ix3 b n c) * Wq (ix2 c d)

/-- g = X Wk at (b, m, d). -/
def gk (b : Fin 4) (m : Fin 4096) (d : Fin 16) : EReal := ∑ c : Fin 128, X (ix3 b m c) * Wk (ix2 c d)

/-- hv = X Wv at (b, n, e). -/
def hv (b : Fin 4) (n : Fin 4096) (e : Fin 128) : EReal := ∑ c : Fin 128, X (ix3 b n c) * Wv (ix2 c e)

/-- score[b,n,m] = f[b,n,:] . g[b,m,:]. -/
def score (b : Fin 4) (n m : Fin 4096) : EReal := ∑ d : Fin 16, fq X Wq b n d * gk X Wk b m d

/-- The column maximum over the row index, folded from -infinity. -/
def colMax (b : Fin 4) (m : Fin 4096) : EReal :=
  (Finset.univ : Finset (Fin 4096)).fold max negInf (fun n => score X Wq Wk b n m)

/-- exp of the score shifted by its column's maximum. -/
def expo (b : Fin 4) (n m : Fin 4096) : EReal := Ideal.exp (score X Wq Wk b n m - colMax X Wq Wk b m)

/-- The column sum of the exponentials. -/
def colSum (b : Fin 4) (m : Fin 4096) : EReal := ∑ n : Fin 4096, expo X Wq Wk b n m

/-- The softmax over the row index. -/
def beta (b : Fin 4) (n m : Fin 4096) : EReal := Ideal.div (expo X Wq Wk b n m) (colSum X Wq Wk b m)

/-- att[b,c,m] = sum over n of hv[b,n,c] * beta[b,n,m]. -/
def att (b : Fin 4) (c : Fin 128) (m : Fin 4096) : EReal := ∑ n : Fin 4096, hv X Wv b n c * beta X Wq Wk b n m

/-- The attention output as an array [4, 128, 4096]. -/
def attArr : SA.Idx → EReal := fun j => att X Wq Wk Wv (j 0) (j 1) (j 2)

theorem attArr_ix3 (b : Fin 4) (c : Fin 128) (m : Fin 4096) :
    attArr X Wq Wk Wv (ix3 b c m) = att X Wq Wk Wv b c m := rfl

end

/-- The maximum with the fold's own starting value changes nothing: the fold is already above it. -/
theorem max_fold_self {ι : Type} (s : Finset ι) (b : EReal) (f : ι → EReal) :
    max b (s.fold max b f) = s.fold max b f :=
  max_eq_right ((Finset.le_fold_max b).mpr (Or.inl le_rfl))

/-! ## One output entry from one query row

  The same softmax-weighted sum written for ONE query row `q` (16 entries) against a key matrix `K` (4096 rows of 16) and one
  column `V` of the value matrix (4096 entries): the scores are K n . q, the weights the softmax of the scores over n, the
  result the weighted sum of V. `att` at (b, c, m) is this with q = g[b,m,:], K = f[b,:,:], V = hv[b,:,c]. -/

/-- The score of key row `n` against the query row. -/
def rowScore (q : Fin 16 → EReal) (K : Fin 4096 → Fin 16 → EReal) (n : Fin 4096) : EReal := ∑ d : Fin 16, K n d * q d

/-- The maximum score, folded from -infinity. -/
def rowMax (q : Fin 16 → EReal) (K : Fin 4096 → Fin 16 → EReal) : EReal :=
  (Finset.univ : Finset (Fin 4096)).fold max negInf (fun n => rowScore q K n)

/-- exp of a score shifted by the maximum. -/
def rowExp (q : Fin 16 → EReal) (K : Fin 4096 → Fin 16 → EReal) (n : Fin 4096) : EReal :=
  Ideal.exp (rowScore q K n - rowMax q K)

/-- The sum of the exponentials. -/
def rowSum (q : Fin 16 → EReal) (K : Fin 4096 → Fin 16 → EReal) : EReal := ∑ n : Fin 4096, rowExp q K n

/-- The softmax-weighted sum of `V`. -/
def rowAtt (q : Fin 16 → EReal) (K : Fin 4096 → Fin 16 → EReal) (V : Fin 4096 → EReal) : EReal :=
  ∑ n : Fin 4096, V n * Ideal.div (rowExp q K n) (rowSum q K)

/-- `att` is `rowAtt` of the projected rows. -/
theorem att_eq_rowAtt (X : SX.Idx → EReal) (Wq Wk : SWd.Idx → EReal) (Wv : SWv.Idx → EReal) (b : Fin 4) (c : Fin 128) (m : Fin 4096) :
    att X Wq Wk Wv b c m = rowAtt (fun d => gk X Wk b m d) (fun n d => fq X Wq b n d) (fun n => hv X Wv b n c) := rfl

/-! ## A grid point's batch and columns

  The kernel visits 64 points in order; point number `n` works on batch n / 16 and produces the 256 output columns
  starting at (n mod 16) * 256. -/

/-- The batch of point number `n`. -/
def batchOf (n : ℕ) (h : n < 64) : Fin 4 := ⟨n / 16, by omega⟩

/-- The output column that local column `r` of point number `n` is. -/
def colOf (n : ℕ) (h : n < 64) (r : Fin 256) : Fin 4096 := ⟨(n % 16) * 256 + r.val, by have := r.isLt; omega⟩

end Cert.Attn

end
-- ==== Proof.Tail.lean ====
/-
  What both programs do after the attention output: the [4, 128, 4096] array is re-read as [4, 64, 64, 128] in row-major
  order (a reshape that scrambles the layout, faithfully on both sides), scaled by the scalar gamma broadcast to every
  entry, and added to the input. One definition, so that the two programs' results are compared by comparing the
  attention arrays alone.
-/
import Idealize.ShloMosaic.PureOps.Ideal
import Idealize.ShloMosaic.PureOps

noncomputable section

namespace Cert.Attn

open Idealize.ShloMosaic

/-- gamma * (the attention output re-read as [4,64,64,128]) + x. -/
def tail (hc : (⟨3, ![4, 128, 4096]⟩ : Shape).ShapeCasts (⟨4, ![4, 64, 64, 128]⟩ : Shape))
    (hb : (⟨0, ![]⟩ : Shape).BroadcastsInDim (⟨4, ![4, 64, 64, 128]⟩ : Shape) (![] : Fin 0 → Fin 4))
    (A : FVec Ideal (⟨3, ![4, 128, 4096]⟩ : Shape) .f32) (g : FVec Ideal (⟨0, ![]⟩ : Shape) .f32)
    (x : FVec Ideal (⟨4, ![4, 64, 64, 128]⟩ : Shape) .f32) : FVec Ideal (⟨4, ![4, 64, 64, 128]⟩ : Shape) .f32 :=
  addf (mulf (broadcastInDim (⟨4, ![4, 64, 64, 128]⟩ : Shape) ![] hb g) (shapeCast (⟨4, ![4, 64, 64, 128]⟩ : Shape) A hc)) x

end Cert.Attn

end
-- ==== Proof.RefAtt.lean ====
/-
  The reference's attention stage, read at an index, is the specification's attention array.

  Each stage of the reference is read at explicit coordinates and identified with the matching function of the
  specification: the three projections, the scores, the column maximum (a fold of max from -infinity, the outer
  maximum with -infinity being absorbed by the fold), the shifted exponentials, their column sums, the softmax,
  and finally the product of the value projection with the softmax.
-/
import proofs.«165051_j42838003810703_2_alg».proof.Proof.Gen.ReferenceIdeal.Read
import proofs.«165051_j42838003810703_2_alg».proof.Proof.Spec

noncomputable section

open scoped BigOperators

namespace Cert.Attn.Ref

open Idealize.ShloMosaic Idealize.ShloMosaic.ValueIdx Cert.ReferenceIdeal Cert.ReferenceIdeal.Gen Cert.ReferenceIdeal.Read

section
variable (x0 : (⟨S4x64x64x128, .f32⟩ : BufTy).Contents (Elt Ideal))
  (x1 x2 : (⟨S128x16, .f32⟩ : BufTy).Contents (Elt Ideal)) (x3 : (⟨S128x128, .f32⟩ : BufTy).Contents (Elt Ideal))

/-- Stage 1 at (b, n, d) is f = X Wq. -/
theorem v1_at (b : Fin 4) (n : Fin 4096) (d : Fin 16) :
    val_main_v1 (F := Ideal) x0 x1 (ix3 b n d) = Cert.Attn.fq (val_main_v0 (F := Ideal) x0) x1 b n d := by
  rw [val_main_v1_apply]
  unfold Cert.Attn.fq
  refine Finset.sum_congr rfl fun k _ => ?_
  have el : lidx_main_v1 (ix3 b n d) k = ix3 b n k :=
    funext fun a => Fin.ext (by match a with | ⟨0, _⟩ => rfl | ⟨1, _⟩ => rfl | ⟨2, _⟩ => rfl)
  have er : ridx_main_v1 (ix3 b n d) k = ix2 k d :=
    funext fun a => Fin.ext (by match a with | ⟨0, _⟩ => rfl | ⟨1, _⟩ => rfl)
  rw [el, er]

/-- Stage 2 at (b, m, d) is g = X Wk. -/
theorem v2_at (b : Fin 4) (m : Fin 4096) (d : Fin 16) :
    val_main_v2 (F := Ideal) x0 x2 (ix3 b m d) = Cert.Attn.gk (val_main_v0 (F := Ideal) x0) x2 b m d := by
  rw [val_main_v2_apply]
  unfold Cert.Attn.gk
  refine Finset.sum_congr rfl fun k _ => ?_
  have el : lidx_main_v2 (ix3 b m d) k = ix3 b m k :=
    funext fun a => Fin.ext (by match a with | ⟨0, _⟩ => rfl | ⟨1, _⟩ => rfl | ⟨2, _⟩ => rfl)
  have er : ridx_main_v2 (ix3 b m d) k = ix2 k d :=
    funext fun a => Fin.ext (by match a with | ⟨0, _⟩ => rfl | ⟨1, _⟩ => rfl)
  rw [el, er]

/-- Stage 3 at (b, n, e) is hv = X Wv. -/
theorem v3_at (b : Fin 4) (n : Fin 4096) (e : Fin 128) :
    val_main_v3 (F := Ideal) x0 x3 (ix3 b n e) = Cert.Attn.hv (val_main_v0 (F := Ideal) x0) x3 b n e := by
  rw [val_main_v3_apply]
  unfold Cert.Attn.hv
  refine Finset.sum_congr rfl fun k _ => ?_
  have el : lidx_main_v3 (ix3 b n e) k = ix3 b n k :=
    funext fun a => Fin.ext (by match a with | ⟨0, _⟩ => rfl | ⟨1, _⟩ => rfl | ⟨2, _⟩ => rfl)
  have er : ridx_main_v3 (ix3 b n e) k = ix2 k e :=
    funext fun a => Fin.ext (by match a with | ⟨0, _⟩ => rfl | ⟨1, _⟩ => rfl)
  rw [el, er]

/-- Stage 4 at (b, n, m) is the score f[b,n,:] . g[b,m,:]. -/
theorem v4_at (b : Fin 4) (n m : Fin 4096) :
    val_main_v4 (F := Ideal) x0 x1 x2 (ix3 b n m) = Cert.Attn.score (val_main_v0 (F := Ideal) x0) x1 x2 b n m := by
  rw [val_main_v4_apply]
  unfold Cert.Attn.score
  refine Finset.sum_congr rfl fun k _ => ?_
  have el : lidx_main_v4 (ix3 b n m) k = ix3 b n k :=
    funext fun a => Fin.ext (by match a with | ⟨0, _⟩ => rfl | ⟨1, _⟩ => rfl | ⟨2, _⟩ => rfl)
  have er : ridx_main_v4 (ix3 b n m) k = ix3 b m k :=
    funext fun a => Fin.ext (by match a with | ⟨0, _⟩ => rfl | ⟨1, _⟩ => rfl | ⟨2, _⟩ => rfl)
  rw [el, er, v1_at, v2_at]

/-- Stage 5 at (b, m): the reduction with maximum over the row index is the column maximum folded from -infinity. -/
theorem v5_at (b : Fin 4) (m : Fin 4096) :
    val_main_v5 (F := Ideal) x0 x1 x2 (ix2 b m) = Cert.Attn.colMax (val_main_v0 (F := Ideal) x0) x1 x2 b m := by
  have h : S4x4096x4096.Reduces [1] S4x4096 := by decide
  unfold val_main_v5
  rw [Host.reduce_eq_fold_single FloatOps.maximumf _ _ reducesTo_S4x4096x4096_S4x4096_d1 h h_S_]
  have hf : ∀ n : Fin 4096, (val_main_v4 (F := Ideal) x0 x1 x2 ∘ h.lift (ix2 b m)) n
      = Cert.Attn.score (val_main_v0 (F := Ideal) x0) x1 x2 b n m := fun n =>
    (congrArg (val_main_v4 (F := Ideal) x0 x1 x2)
      (funext fun a => Fin.ext (by match a with | ⟨0, _⟩ => rfl | ⟨1, _⟩ => rfl | ⟨2, _⟩ => rfl))).trans
      (v4_at x0 x1 x2 b n m)
  unfold Cert.Attn.colMax
  exact Finset.fold_congr (fun n _ => hf n)

/-- Stage 7 at (b, m): the maximum of -infinity with the column maximum is the column maximum, since the fold
    already starts from -infinity. -/
theorem v7_at (b : Fin 4) (m : Fin 4096) :
    val_main_v7 (F := Ideal) x0 x1 x2 (ix2 b m) = Cert.Attn.colMax (val_main_v0 (F := Ideal) x0) x1 x2 b m := by
  rw [val_main_v7_apply, val_main_v6_apply, val_main_cst_0_apply, v5_at]
  unfold Cert.Attn.colMax
  exact Cert.Attn.max_fold_self _ Cert.Attn.negInf _

/-- Stage 9 at (b, n, m): the column maximum repeated along the row index. -/
theorem v9_at (b : Fin 4) (n m : Fin 4096) :
    val_main_v9 (F := Ideal) x0 x1 x2 (ix3 b n m) = Cert.Attn.colMax (val_main_v0 (F := Ideal) x0) x1 x2 b m := by
  rw [val_main_v9_apply, val_main_v8_apply]
  have e : idx_main_v8 (idx_main_v9 (ix3 b n m)) = ix2 b m :=
    funext fun a => Fin.ext (by match a with | ⟨0, _⟩ => rfl | ⟨1, _⟩ => rfl)
  rw [e, v7_at]

/-- Stage 11 at (b, n, m): the exponential of the score shifted by its column's maximum. -/
theorem v11_at (b : Fin 4) (n m : Fin 4096) :
    val_main_v11 (F := Ideal) x0 x1 x2 (ix3 b n m) = Cert.Attn.expo (val_main_v0 (F := Ideal) x0) x1 x2 b n m := by
  rw [val_main_v11_apply, val_main_v10_apply, v4_at, v9_at]
  rfl

/-- Stage 12 at (b, m): zero plus the sum over the row index of the exponentials is the column sum. -/
theorem v12_at (b : Fin 4) (m : Fin 4096) :
    val_main_v12 (F := Ideal) x0 x1 x2 (ix2 b m) = Cert.Attn.colSum (val_main_v0 (F := Ideal) x0) x1 x2 b m := by
  rw [val_main_v12_apply, val_main_cst_1_apply]
  unfold Cert.Attn.colSum
  refine (congrArg (· + _) Ideal.ofBits_zero_f32).trans ?_
  rw [zero_add]
  refine Finset.sum_congr rfl fun k _ => ?_
  have e : idx_main_v12 (ix2 b m) k = ix3 b k m :=
    funext fun a => Fin.ext (by match a with | ⟨0, _⟩ => rfl | ⟨1, _⟩ => rfl | ⟨2, _⟩ => rfl)
  rw [e, v11_at]

/-- Stage 14 at (b, n, m): the column sum repeated along the row index. -/
theorem v14_at (b : Fin 4) (n m : Fin 4096) :
    val_main_v14 (F := Ideal) x0 x1 x2 (ix3 b n m) = Cert.Attn.colSum (val_main_v0 (F := Ideal) x0) x1 x2 b m := by
  rw [val_main_v14_apply, val_main_v13_apply]
  have e : idx_main_v13 (idx_main_v14 (ix3 b n m)) = ix2 b m :=
    funext fun a => Fin.ext (by match a with | ⟨0, _⟩ => rfl | ⟨1, _⟩ => rfl)
  rw [e, v12_at]

/-- Stage 15 at (b, n, m): the softmax over the row index. -/
theorem v15_at (b : Fin 4) (n m : Fin 4096) :
    val_main_v15 (F := Ideal) x0 x1 x2 (ix3 b n m) = Cert.Attn.beta (val_main_v0 (F := Ideal) x0) x1 x2 b n m := by
  rw [val_main_v15_apply, v11_at, v14_at]
  rfl

end

/-- The reference's [4,128,4096] product of hv with the softmax is `attArr` of the flattened input and the weights. -/
theorem val_main_v16_eq_attArr (x0 : (⟨S4x64x64x128, .f32⟩ : BufTy).Contents (Elt Ideal))
    (x1 x2 : (⟨S128x16, .f32⟩ : BufTy).Contents (Elt Ideal)) (x3 : (⟨S128x128, .f32⟩ : BufTy).Contents (Elt Ideal)) :
    val_main_v16 (F := Ideal) x0 x1 x2 x3 = Cert.Attn.attArr (val_main_v0 (F := Ideal) x0) x1 x2 x3 := by
  funext j
  obtain ⟨b, c, mm, rfl⟩ : ∃ b c mm, j = ix3 b c mm := ⟨j 0, j 1, j 2, eq_ix3 j⟩
  rw [val_main_v16_apply, Cert.Attn.attArr_ix3]
  unfold Cert.Attn.att
  refine Finset.sum_congr rfl fun k _ => ?_
  have el : lidx_main_v16 (ix3 b c mm) k = ix3 b k c :=
    funext fun a => Fin.ext (by match a with | ⟨0, _⟩ => rfl | ⟨1, _⟩ => rfl | ⟨2, _⟩ => rfl)
  have er : ridx_main_v16 (ix3 b c mm) k = ix3 b k mm :=
    funext fun a => Fin.ext (by match a with | ⟨0, _⟩ => rfl | ⟨1, _⟩ => rfl | ⟨2, _⟩ => rfl)
  rw [el, er, v3_at, v15_at]

end Cert.Attn.Ref

end
-- ==== Proof.LibMatmul.lean ====
/-
  A matrix product into a zero accumulator, read at an index, as a plain sum of products over the contracted axis.

  For a product of an n-by-K array with a K-by-M array whose dimension numbers contract the left operand's columns
  against the right operand's rows, the entry at (p, q) is the sum over k of left(p, k) · right(k, q). The four facts
  about the dimension numbers that say so (which coordinate of each operand index comes from the output index and which
  from the contraction index) are taken as hypotheses, since each printed record proves them by unfolding.
-/
import Idealize.ShloMosaic.PureOps.Ideal.Laws
import Idealize.ShloMosaic.Lib.ValueIdx

noncomputable section

open scoped BigOperators

namespace Cert.Lib.Matmul

open Idealize.ShloMosaic Idealize.ShloMosaic.ValueIdx

/-- A kernel's matrix product into the zero splat, at the ideal values, read at `(p, q)`: the sum over the contracted
    axis of the left operand's row `p` times the right operand's column `q`. -/
theorem matmul_zero_ix2 {n K M : ℕ} {φ₁ φ₂ : FTy}
    (d : DotDims (⟨2, ![n, K]⟩ : Shape) (⟨2, ![K, M]⟩ : Shape) (⟨2, ![n, M]⟩ : Shape)) (prec : Option ContractPrecision)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The host's `dot_general` with the same dimension numbers, read the same way. -/
theorem dotGeneral_ix2 {n K M : ℕ} {φ₁ φ₂ : FTy}
    (d : DotDims (⟨2, ![n, K]⟩ : Shape) (⟨2, ![K, M]⟩ : Shape) (⟨2, ![n, M]⟩ : Shape)) (prec : Option ContractPrecision)
    (sched : HostSchedule)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.dotGeneral d prec sched lhs rhs (ix2 p q) = ∑ k : Fin K, lhs (ix2 p k) * rhs (ix2 k q) := by
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.Lib.Matmul

end
-- ==== Proof.LibDotStd.lean ====
/-
  The index maps of a plain matrix product's dimension numbers.

  For dimension numbers with no batch axes, one free axis on each side and one contracted axis on each side — the shape
  of every row-times-column product — the left operand's free coordinate is the result's first coordinate and the
  right operand's free coordinate is the result's second, whatever the contraction position is. Together with the
  library's facts for the contracted coordinate these are the four index facts a sum-of-products reading needs.
-/
import Idealize.ShloMosaic.PureOps.Dims

namespace Cert.Lib.DotStd

open Idealize.ShloMosaic

variable {sl sr so : Shape} (d : DotDims sl sr so)

/-- With no batch axis and `a` the one free axis of the left operand, the left index on `a` is the result's first
    coordinate. -/
theorem lhsIdx_free (a : Fin sl.rank) (hb : d.lhsBatch = []) (hn : d.lhsNonContracting = [a]) (h0 : 0 < so.rank)
    (j : so.Idx) (c : d.contr.Idx) : (d.lhsIdx j c a).val = (j ⟨0, h0⟩).val := by
  unfold DotDims.lhsIdx
  rw [dif_neg (by rw [hb]; exact List.not_mem_nil), dif_pos (by rw [hn]; exact List.mem_singleton.mpr rfl)]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis, one free axis on the left and `a` the one free axis of the right operand, the right index on
    `a` is the result's second coordinate. -/
theorem rhsIdx_free (a : Fin sr.rank) (hb : d.rhsBatch = []) (hlb : d.lhsBatch = []) (al : Fin sl.rank)
    (hln : d.lhsNonContracting = [al]) (hn : d.rhsNonContracting = [a]) (h1 : 1 < so.rank)
    (j : so.Idx) (c : d.contr.Idx) : (d.rhsIdx j c a).val = (j ⟨1, h1⟩).val := by
  unfold DotDims.rhsIdx
  rw [dif_neg (by rw [hb]; exact List.not_mem_nil), dif_pos (by rw [hn]; exact List.mem_singleton.mpr rfl)]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Cert.Lib.DotStd
-- ==== Proof.LibStdMatmul.lean ====
/-
  A matrix product into a zero accumulator whose dimension numbers are the standard ones — no batch axis, the left
  operand's columns contracted against the right operand's rows, the left operand's rows and the right operand's
  columns free — read at an index.

  For an n-by-K array times a K-by-M array with those dimension numbers, the entry at (p, q) of the product added to
  a zero array is the sum over k of left(p, k) · right(k, q). The record's six lists are taken as hypotheses; a printed
  record proves each by unfolding.
-/
import proofs.«165051_j42838003810703_2_alg».proof.Proof.LibMatmul
import proofs.«165051_j42838003810703_2_alg».proof.Proof.LibDotStd

noncomputable section

open scoped BigOperators

namespace Cert.Lib.StdMatmul

open Idealize.ShloMosaic Idealize.ShloMosaic.ValueIdx

/-- The kernel's matrix product into the zero splat, standard dimension numbers, at the ideal values, read at (p, q). -/
theorem matmul_std_ix2 {n K M : ℕ} {φ₁ φ₂ : FTy}
    (d : DotDims (⟨2, ![n, K]⟩ : Shape) (⟨2, ![K, M]⟩ : Shape) (⟨2, ![n, M]⟩ : Shape)) (prec : Option ContractPrecision)
    (hlc : d.lhsContracting = [1]) (hrc : d.rhsContracting = [0]) (hln : d.lhsNonContracting = [0]) (hrn : d.rhsNonContracting = [1])
    (hlb : d.lhsBatch = []) (hrb : d.rhsBatch = [])
    (lhs : FVec Ideal (⟨2, ![n, K]⟩ : Shape) φ₁) (rhs : FVec Ideal (⟨2, ![K, M]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 k q) := by
  have hr : d.contr.rank = 1 := by rw [d.rank_contr, hlc]; rfl
  have hs : d.contr.size ⟨0, by omega⟩ = K := by
    unfold DotDims.contr
    simp [hlc, Shape.ofList]
  refine Cert.Lib.Matmul.matmul_zero_ix2 d prec hr hs ?_ ?_ ?_ ?_ lhs rhs p q
  · intro j c; exact Cert.Lib.DotStd.lhsIdx_free d 0 hlb hln Nat.zero_lt_two j c
  · intro j c; exact d.lhsIdx_val_of_single hlc j c
  · intro j c; exact d.rhsIdx_val_of_single hrc j c
  · intro j c; exact Cert.Lib.DotStd.rhsIdx_free d 1 hrb hlb 0 hln hrn Nat.one_lt_two j c

end Cert.Lib.StdMatmul

end
-- ==== Proof.LibTrMatmul.lean ====
/-
  A matrix product into a zero accumulator whose dimension numbers contract the SECOND axis of both operands — an
  n-by-K array against an M-by-K array, the right operand read transposed — at an index.

  With no batch axis, the left operand's rows and the right operand's rows free, and the two column axes contracted,
  the entry at (p, q) of the product added to a zero array is the sum over k of left(p, k) · right(q, k). The record's
  six lists are taken as hypotheses; a printed record proves each by unfolding.
-/
import proofs.«165051_j42838003810703_2_alg».proof.Proof.LibDotStd
import Idealize.ShloMosaic.PureOps.Ideal.Laws
import Idealize.ShloMosaic.Lib.ValueIdx

noncomputable section

open scoped BigOperators

namespace Cert.Lib.TrMatmul

open Idealize.ShloMosaic Idealize.ShloMosaic.ValueIdx

/-- The matrix product into the zero splat, right operand transposed, at the ideal values, read at (p, q). -/
theorem matmul_tr_ix2 {n K M : ℕ} {φ₁ φ₂ : FTy}
    (d : DotDims (⟨2, ![n, K]⟩ : Shape) (⟨2, ![M, K]⟩ : Shape) (⟨2, ![n, M]⟩ : Shape)) (prec : Option ContractPrecision)
    (hlc : d.lhsContracting = [1]) (hrc : d.rhsContracting = [1]) (hln : d.lhsNonContracting = [0]) (hrn : d.rhsNonContracting = [0])
    (hlb : d.lhsBatch = []) (hrb : d.rhsBatch = [])
    (lhs : FVec Ideal (⟨2, ![n, K]⟩ : Shape) φ₁) (rhs : FVec Ideal (⟨2, ![M, K]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 q k) := by
  have hr : d.contr.rank = 1 := by rw [d.rank_contr, hlc]; rfl
  have hs : d.contr.size ⟨0, by omega⟩ = K := by
    unfold DotDims.contr
    simp [hlc, Shape.ofList]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact Cert.Lib.DotStd.lhsIdx_free d 0 hlb hln Nat.zero_lt_two _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact Cert.Lib.DotStd.rhsIdx_free d 0 hrb hlb 0 hln hrn Nat.one_lt_two _ _
    | ⟨1, _⟩ => exact (d.rhsIdx_val_of_single hrc _ _).trans hk)
  rw [el, er]

end Cert.Lib.TrMatmul

end
-- ==== Proof.Pay.lean ====
/-
  The kernel body's three stored values, read at an index on the extended reals.
-/
import proofs.«165051_j42838003810703_2_alg».proof.Proof.Gen.KernelIdeal.Skeleton
import proofs.«165051_j42838003810703_2_alg».proof.Proof.Spec
import proofs.«165051_j42838003810703_2_alg».proof.Proof.LibStdMatmul
import proofs.«165051_j42838003810703_2_alg».proof.Proof.LibTrMatmul
import Idealize.ShloMosaic.Lib.Pipeline.Value
import Idealize.ShloMosaic.Lib.ValueLayout
import Idealize.ShloMosaic.PureOps.Ideal.Laws

noncomputable section

open scoped BigOperators

namespace Cert.Attn.Pay

open Idealize.ShloMosaic Idealize.ShloMosaic.ValueIdx Cert.KernelIdeal Cert.KernelIdeal.Gen

/-- The batch's block viewed as a matrix: entry (n, c) is the block's entry (0, n, c). -/
theorem pay1_apply (v31 : Vec Ideal S1x4096x128 .f32) (n : Fin 4096) (c : Fin 128) :
    k0_pay1 (F := Ideal) v31 (ix2 n c) = v31 (ix3 0 n c) := by
  unfold k0_pay1
  exact shapeCast_1ab_ab_apply v31 _ n c

/-- The key scratch's stored value at (n, d): row n of the batch's block times column d of the weight. -/
theorem pay2_apply (v31 : Vec Ideal S1x4096x128 .f32) (v34 : Vec Ideal S128x16 .f32) (n : Fin 4096) (d : Fin 16) :
    k0_pay2 (F := Ideal) v31 v34 (ix2 n d) = ∑ c : Fin 128, v31 (ix3 0 n c) * v34 (ix2 c d) := by
  unfold k0_pay2
  rw [shapeCast_self]
  refine (Cert.Lib.StdMatmul.matmul_std_ix2 (n := 4096) (K := 128) (M := 16)
    dot_S4096x128_S128x16_S4096x16_1_0_0_1_n_n none rfl rfl rfl rfl rfl rfl
    (k0_pay1 (F := Ideal) v31) (truncf .bf16 v34 bitsLt_bf16_f32) n d).trans ?_
  exact Finset.sum_congr rfl fun c _ => congrArg (· * v34 (ix2 c d)) (pay1_apply v31 n c)

/-- The value scratch's stored value at (n, e). -/
theorem pay3_apply (v31 : Vec Ideal S1x4096x128 .f32) (v36 : Vec Ideal S128x128 .f32) (n : Fin 4096) (e : Fin 128) :
    k0_pay3 (F := Ideal) v31 v36 (ix2 n e) = ∑ c : Fin 128, v31 (ix3 0 n c) * v36 (ix2 c e) := by
  unfold k0_pay3
  rw [shapeCast_self]
  refine (Cert.Lib.StdMatmul.matmul_std_ix2 (n := 4096) (K := 128) (M := 128)
    dot_S4096x128_S128x128_S4096x128_1_0_0_1_n_n none rfl rfl rfl rfl rfl rfl
    (k0_pay1 (F := Ideal) v31) (truncf .bf16 v36 bitsLt_bf16_f32) n e).trans ?_
  exact Finset.sum_congr rfl fun c _ => congrArg (· * v36 (ix2 c e)) (pay1_apply v31 n c)

/-! ## The stages of the output block that are not pointwise, each read at explicit coordinates -/

section Stage
variable {α : Type}

/-- A length-a array cast to a column [a, 1] and then broadcast to [a, b] reads, at (r, n), the array at r. -/
theorem colBroadcast_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (r : Fin a) (n : Fin b) :
    broadcastTo ⟨2, ![a, b]⟩ (shapeCast ⟨2, ![a, 1]⟩ x h1) h2 (ix2 r n) = x (ix1 r) := by
  refine (broadcastTo_apply _ h2 (ix2 r n) (ix2 r (0 : Fin 1)) fun ax => ?_).trans ?_
  · match ax with
    | ⟨0, _⟩ =>
      show r.val = if a = 1 then 0 else r.val
      split
      · have := r.isLt; omega
      · rfl
    | ⟨1, _⟩ => rfl
  · exact shapeCast_apply x h1 _ _ (by
      rw [Shape.rowMajor_val_two, Shape.rowMajor_val_one]
      show r.val = r.val * 1 + 0
      omega)

end Stage

/-- The index a reduction over the second axis inserts coordinate n into, from the reduced index r, is (r, n). -/
theorem lift_ix1 (h : S256x4096.Reduces [1] S256) (r : Fin 256) (n : Fin 4096) : h.lift (ix1 r) n = ix2 r n :=
  funext fun a => Fin.ext (by
    match a with
    | ⟨0, _⟩ => rfl
    | ⟨1, _⟩ => rfl)

/-- The maximum of row r of a matrix, folded from -infinity. -/
def rmax (S : FVec Ideal S256x4096 .f32) (r : Fin 256) : EReal :=
  (Finset.univ : Finset (Fin 4096)).fold max Cert.Attn.negInf (fun n => S (ix2 r n))

/-- The maximum reduction over the second axis, read at r, is the row's maximum folded from -infinity. -/
theorem rowMaxV_apply (S : FVec Ideal S256x4096 .f32) (h : S256x4096.Reduces [1] S256) (hφ : FKind.Formats .f32)
    (hacc : (0xFF800000#32 : BitVec 32) = FKind.maximumf.neutral .f32 hφ) (r : Fin 256) :
    multiReduction (F := Ideal) .maximumf [1] S256 S 0xFF800000#32 h hφ hacc (ix1 r) = rmax S r := by
  refine (Ideal.multiReduction_maximumf_single S _ h hφ hacc (ix1 r)).trans ?_
  show (Finset.univ : Finset (Fin 4096)).fold max Cert.Attn.negInf (fun n => S (h.lift (ix1 r) n)) = _
  exact congrArg (fun f => Finset.fold max Cert.Attn.negInf f (Finset.univ : Finset (Fin 4096)))
    (funext fun n => congrArg S (lift_ix1 h r n))

/-- The sum reduction over the second axis, read at r, is the row's sum. -/
theorem rowSumV_apply (E : FVec Ideal S256x4096 .f32) (h : S256x4096.Reduces [1] S256) (hφ : FKind.Formats .f32)
    (hacc : (0x00000000#32 : BitVec 32) = FKind.add.neutral .f32 hφ) (r : Fin 256) :
    multiReduction (F := Ideal) .add [1] S256 E 0x00000000#32 h hφ hacc (ix1 r) = ∑ n : Fin 4096, E (ix2 r n) := by
  refine (Ideal.multiReduction_add_single E _ h hφ hacc (ix1 r)).trans ?_
  show ∑ n : Fin 4096, E (h.lift (ix1 r) n) = _
  exact Finset.sum_congr rfl fun n _ => congrArg E (lift_ix1 h r n)

/-- The kernel's softmax weights of a score matrix — subtract the row maximum, exponentiate, divide by the row sum — read
    at (r, n). -/
theorem weight_apply (S : FVec Ideal S256x4096 .f32) (h : S256x4096.Reduces [1] S256) (hφ : FKind.Formats .f32)
    (hmax : (0xFF800000#32 : BitVec 32) = FKind.maximumf.neutral .f32 hφ)
    (hadd : (0x00000000#32 : BitVec 32) = FKind.add.neutral .f32 hφ)
    (h1 : S256.ShapeCasts S256x1) (h2 : S256x1.Broadcasts S256x4096) (r : Fin 256) (n : Fin 4096) :
    divf
      (exp (subf S (broadcastTo S256x4096 (shapeCast S256x1
        (multiReduction (F := Ideal) .maximumf [1] S256 S 0xFF800000#32 h hφ hmax) h1) h2)))
      (broadcastTo S256x4096 (shapeCast S256x1 (multiReduction (F := Ideal) .add [1] S256
        (exp (subf S (broadcastTo S256x4096 (shapeCast S256x1
          (multiReduction (F := Ideal) .maximumf [1] S256 S 0xFF800000#32 h hφ hmax) h1) h2)))
        0x00000000#32 h hφ hadd) h1) h2) (ix2 r n)
      = Ideal.div (Ideal.exp (S (ix2 r n) - rmax S r)) (∑ n' : Fin 4096, Ideal.exp (S (ix2 r n') - rmax S r)) := by
  have hE : ∀ n' : Fin 4096,
      exp (subf S (broadcastTo S256x4096 (shapeCast S256x1
        (multiReduction (F := Ideal) .maximumf [1] S256 S 0xFF800000#32 h hφ hmax) h1) h2)) (ix2 r n')
        = Ideal.exp (S (ix2 r n') - rmax S r) := fun n' =>
    congrArg (fun m => Ideal.exp (S (ix2 r n') - m))
      ((colBroadcast_apply _ h1 h2 r n').trans (rowMaxV_apply S h hφ hmax r))
  refine (divf_apply _ _ _).trans ?_
  rw [hE n, colBroadcast_apply _ h1 h2 r n, rowSumV_apply _ h hφ hadd r]
  exact congrArg (Ideal.div _) (Finset.sum_congr rfl fun n' _ => hE n')

/-- When row r of a score matrix is the scores of a query row against the key rows, its softmax weight at n is the
    per-row form's. -/
theorem softmax_congr (S : FVec Ideal S256x4096 .f32) (r : Fin 256) (q : Fin 16 → EReal) (K : Fin 4096 → Fin 16 → EReal)
    (hS : ∀ n, S (ix2 r n) = Cert.Attn.rowScore q K n) (n : Fin 4096) :
    Ideal.div (Ideal.exp (S (ix2 r n) - rmax S r)) (∑ n' : Fin 4096, Ideal.exp (S (ix2 r n') - rmax S r))
      = Ideal.div (Cert.Attn.rowExp q K n) (Cert.Attn.rowSum q K) := by
  have hm : rmax S r = Cert.Attn.rowMax q K :=
    congrArg (fun f => Finset.fold max Cert.Attn.negInf f (Finset.univ : Finset (Fin 4096))) (funext hS)
  unfold Cert.Attn.rowSum Cert.Attn.rowExp
  rw [hm, hS n]
  exact congrArg (Ideal.div _) (Finset.sum_congr rfl fun n' _ => by rw [hS n'])

/-- The output block's stored value at (0, c, r): the softmax-weighted sum for query row r against the key and value
    scratch contents, column c. -/
theorem pay4_apply (v6 : Vec Ideal S1x256x128 .f32) (v9 : Vec Ideal S128x16 .f32) (v13 : Vec Ideal S4096x16 .bf16)
    (v14 : Vec Ideal S4096x128 .bf16) (c : Fin 128) (r : Fin 256) :
    k0_pay4 (F := Ideal) v6 v9 v13 v14 (ix3 0 c r)
      = Cert.Attn.rowAtt (fun d => ∑ c' : Fin 128, v6 (ix3 0 r c') * v9 (ix2 c' d)) (fun n d => v13 (ix2 n d)) (fun n => v14 (ix2 n c)) := by
  unfold k0_pay4
  refine (shapeCast_ab_1ab_apply _ _ 0 c r).trans ?_
  refine (transpose_ix2_apply _ _ c r).trans ?_
  refine (Cert.Lib.StdMatmul.matmul_std_ix2 (n := 256) (K := 4096) (M := 128) (φ₁ := .bf16) (φ₂ := .bf16)
    dot_S256x4096_S4096x128_S256x128_1_0_0_1_n_n none rfl rfl rfl rfl rfl rfl _ (v14 : FVec Ideal S4096x128 .bf16) r c).trans ?_
  unfold Cert.Attn.rowAtt
  refine Finset.sum_congr rfl fun n _ => ?_
  refine (mul_comm _ _).trans ?_
  refine congrArg (v14 (ix2 n c) * ·) ?_
  refine (truncf_apply (ψ := .bf16) (φ := .f32) _ bitsLt_bf16_f32 _).trans ?_
  refine (weight_apply _ _ _ _ _ _ _ r n).trans ?_
  refine softmax_congr _ r _ _ (fun n' => ?_) n
  refine (Cert.Lib.TrMatmul.matmul_tr_ix2 (n := 256) (K := 16) (M := 4096) (φ₁ := .bf16) (φ₂ := .bf16)
    dot_S256x16_S4096x16_S256x4096_1_1_0_0_n_n none rfl rfl rfl rfl rfl rfl _ (v13 : FVec Ideal S4096x16 .bf16) r n').trans ?_
  unfold Cert.Attn.rowScore
  refine Finset.sum_congr rfl fun d _ => ?_
  refine (mul_comm _ _).trans ?_
  refine congrArg (v13 (ix2 n' d) * ·) ?_
  refine (truncf_apply (ψ := .bf16) (φ := .f32) _ bitsLt_bf16_f32 _).trans ?_
  refine (Cert.Lib.StdMatmul.matmul_std_ix2 (n := 256) (K := 128) (M := 16) (φ₁ := .bf16) (φ₂ := .bf16)
    dot_S256x128_S128x16_S256x16_1_0_0_1_n_n none rfl rfl rfl rfl rfl rfl _ _ r d).trans ?_
  refine Finset.sum_congr rfl fun c' _ => ?_
  exact congrArg (· * v9 (ix2 c' d)) (shapeCast_1ab_ab_apply v6 _ r c')

end Cert.Attn.Pay

end
-- ==== Proof.Blocks.lean ====
/-
  What the kernel's grid leaves in its output blocks.

  The kernel visits 64 points, 16 per batch. At the first point of a batch it fills two buffers that it then keeps for the
  batch's other 15 points: the key rows f = X[b] Wq (4096 by 16) and the value rows hv = X[b] Wv (4096 by 128). At every
  point it takes the 256 rows of X[b] starting at (n mod 16) * 256, projects them with Wk to the query rows g, and stores
  the softmax-weighted sums of the value columns, transposed, as a [1, 128, 256] block.

  Read here off the run the frame proof found:
    * each of the four stored values is the body's arithmetic of what it loaded (one covering store each; in the first
      point of a batch the two buffers are read back from the stores just made);
    * so, point by point, the two buffers hold f and hv of the point's batch (by induction on the point number: the first
      point of a batch computes them from the batch's block, every other point keeps what the point before left, and both
      points have the same batch);
    * so the block stored at point n holds att[b, c, m] for b = n / 16 and m = (n mod 16) * 256 + r, r the block column.
-/
import proofs.«165051_j42838003810703_2_alg».proof.Proof.Gen.KernelIdeal.Frame
import proofs.«165051_j42838003810703_2_alg».proof.Proof.Spec
import proofs.«165051_j42838003810703_2_alg».proof.Proof.Pay
import Idealize.ShloMosaic.Lib.Pipeline.Value
import Idealize.ShloMosaic.Lib.Tactic

set_option maxRecDepth 16384

noncomputable section

open scoped BigOperators

namespace Cert.Attn.Blocks

open Idealize.ShloMosaic Idealize.ShloMosaic.ValueIdx Idealize.ShloMosaic.TcCoe Idealize.SL.Sem Idealize.ShloMosaic.Tactic
open Cert.KernelIdeal Cert.KernelIdeal.Gen

/-! ## The four stored values as the body's arithmetic of its loads -/

section Pieces

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 256 rows of the batch's block that a point's query tile reads. -/
def tile (i : grid0.Coords) (x0 : Vec F S1x4096x128 .f32) : Vec F S1x256x128 .f32 :=
  View.ld x0 (Rect.unit (s := S1x4096x128) (k0_off1 i) S1x256x128.size (k0_off1_inb i))

/-- First point of a batch: the key buffer is left at the product of the batch's block with the first weight. -/
theorem keys_first (c : Dev nD) (i : grid0.Coords) (arg2 : Memref sig .tc .vmem S1x4096x128 .f32) (harg2 : arg2.IsWhole) (arg3 : Memref sig .tc .vmem S128x16 .f32) (harg3 : arg3.IsWhole) (arg4 : Memref sig .tc .vmem S128x16 .f32) (harg4 : arg4.IsWhole) (arg5 : Memref sig .tc .vmem S128x128 .f32) (harg5 : arg5.IsWhole) (arg6 : Memref sig .tc .vmem S1x128x256 .f32) (harg6 : arg6.IsWhole) (arg7 : Memref sig .tc .vmem S4096x16 .bf16) (harg7 : arg7.IsWhole) (arg8 : Memref sig .tc .vmem S4096x128 .bf16) (harg8 : arg8.IsWhole) (hc0 : cond0_0 i)
    (x0 : Vec F S1x4096x128 .f32) (x1 : Vec F S128x16 .f32) (x2 : Vec F S128x16 .f32) (x3 : Vec F S128x128 .f32) :
    sout0_A_0 c i arg2 harg2 arg3 harg3 arg4 harg4 arg5 harg5 arg6 harg6 arg7 harg7 arg8 harg8 hc0 x0 x1 x2 x3 = k0_pay2 x0 x1 := by
  unfold sout0_A_0
  rw [View.read_writes_eq_canon _ _ _ (scover0_A_0 c i arg2 harg2 arg3 harg3 arg4 harg4 arg5 harg5 arg6 harg6 arg7 harg7 arg8 harg8 hc0 x0 x1 x2 x3)]
  unfold kernelRun0_A
  dsimp only
  sl_unfold_words
  rw [View.canon_unit_zero hz2]
  simp only [View.readAt_eq_ld, harg2.read_unread, harg3.read_unread, View.ld_unit_zero (S := S1x4096x128) hz3, View.ld_unit_zero (S := S128x16) hz2]

/-- First point of a batch: the value buffer is left at the product of the batch's block with the third weight. -/
theorem values_first (c : Dev nD) (i : grid0.Coords) (arg2 : Memref sig .tc .vmem S1x4096x128 .f32) (harg2 : arg2.IsWhole) (arg3 : Memref sig .tc .vmem S128x16 .f32) (harg3 : arg3.IsWhole) (arg4 : Memref sig .tc .vmem S128x16 .f32) (harg4 : arg4.IsWhole) (arg5 : Memref sig .tc .vmem S128x128 .f32) (harg5 : arg5.IsWhole) (arg6 : Memref sig .tc .vmem S1x128x256 .f32) (harg6 : arg6.IsWhole) (arg7 : Memref sig .tc .vmem S4096x16 .bf16) (harg7 : arg7.IsWhole) (arg8 : Memref sig .tc .vmem S4096x128 .bf16) (harg8 : arg8.IsWhole) (hc0 : cond0_0 i)
    (x0 : Vec F S1x4096x128 .f32) (x1 : Vec F S128x16 .f32) (x2 : Vec F S128x16 .f32) (x3 : Vec F S128x128 .f32) :
    sout0_A_1 c i arg2 harg2 arg3 harg3 arg4 harg4 arg5 harg5 arg6 harg6 arg7 harg7 arg8 harg8 hc0 x0 x1 x2 x3 = k0_pay3 x0 x3 := by
  unfold sout0_A_1
  rw [View.read_writes_eq_canon _ _ _ (scover0_A_1 c i arg2 harg2 arg3 harg3 arg4 harg4 arg5 harg5 arg6 harg6 arg7 harg7 arg8 harg8 hc0 x0 x1 x2 x3)]
  unfold kernelRun0_A
  dsimp only
  sl_unfold_words
  rw [View.canon_unit_zero hz2]
  simp only [View.readAt_eq_ld, harg2.read_unread, harg5.read_unread, View.ld_unit_zero (S := S1x4096x128) hz3, View.ld_unit_zero (S := S128x128) hz2]

/-- A later point of a batch: the output block from the tile, the second weight and the two buffers as found. -/
theorem block_later (c : Dev nD) (i : grid0.Coords) (arg2 : Memref sig .tc .vmem S1x4096x128 .f32) (harg2 : arg2.IsWhole) (arg3 : Memref sig .tc .vmem S128x16 .f32) (harg3 : arg3.IsWhole) (arg4 : Memref sig .tc .vmem S128x16 .f32) (harg4 : arg4.IsWhole) (arg5 : Memref sig .tc .vmem S128x128 .f32) (harg5 : arg5.IsWhole) (arg6 : Memref sig .tc .vmem S1x128x256 .f32) (harg6 : arg6.IsWhole) (arg7 : Memref sig .tc .vmem S4096x16 .bf16) (harg7 : arg7.IsWhole) (arg8 : Memref sig .tc .vmem S4096x128 .bf16) (harg8 : arg8.IsWhole) (hc0 : ¬cond0_0 i)
    (x0 : Vec F S1x4096x128 .f32) (x1 : Vec F S128x16 .f32) (x2 : Vec F S128x16 .f32) (x3 : Vec F S128x128 .f32) (xs0 : Vec F S4096x16 .bf16) (xs1 : Vec F S4096x128 .bf16) :
    out0_B_4 c i arg2 harg2 arg3 harg3 arg4 harg4 arg5 harg5 arg6 harg6 arg7 harg7 arg8 harg8 hc0 x0 x1 x2 x3 xs0 xs1 = k0_pay4 (tile i x0) x2 xs0 xs1 := by
  unfold out0_B_4
  rw [View.read_writes_eq_canon _ _ _ (cover0_B_4 c i arg2 harg2 arg3 harg3 arg4 harg4 arg5 harg5 arg6 harg6 arg7 harg7 arg8 harg8 hc0 x0 x1 x2 x3 xs0 xs1)]
  unfold kernelRun0_B
  dsimp only
  rw [View.canon_unit_zero hz3]
  unfold tile
  simp only [View.readAt_eq_ld, harg2.read_unread, harg4.read_unread, harg7.read_unread, harg8.read_unread, View.ld_unit_zero (S := S128x16) hz2, View.ld_unit_zero (S := S4096x16) hz2, View.ld_unit_zero (S := S4096x128) hz2]

/-- First point of a batch: the output block from the tile, the second weight and the two buffers just filled. -/
theorem block_first (c : Dev nD) (i : grid0.Coords) (arg2 : Memref sig .tc .vmem S1x4096x128 .f32) (harg2 : arg2.IsWhole) (arg3 : Memref sig .tc .vmem S128x16 .f32) (harg3 : arg3.IsWhole) (arg4 : Memref sig .tc .vmem S128x16 .f32) (harg4 : arg4.IsWhole) (arg5 : Memref sig .tc .vmem S128x128 .f32) (harg5 : arg5.IsWhole) (arg6 : Memref sig .tc .vmem S1x128x256 .f32) (harg6 : arg6.IsWhole) (arg7 : Memref sig .tc .vmem S4096x16 .bf16) (harg7 : arg7.IsWhole) (arg8 : Memref sig .tc .vmem S4096x128 .bf16) (harg8 : arg8.IsWhole) (hc0 : cond0_0 i)
    (x0 : Vec F S1x4096x128 .f32) (x1 : Vec F S128x16 .f32) (x2 : Vec F S128x16 .f32) (x3 : Vec F S128x128 .f32) :
    out0_A_4 c i arg2 harg2 arg3 harg3 arg4 harg4 arg5 harg5 arg6 harg6 arg7 harg7 arg8 harg8 hc0 x0 x1 x2 x3 = k0_pay4 (tile i x0) x2 (k0_pay2 x0 x1) (k0_pay3 x0 x3) := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_words
  rw [View.canon_unit_zero hz3, View.readCov_unit_zero (S := S4096x16) _ hz2, View.readCov_unit_zero (S := S4096x128) _ hz2]
  simp only [View.readAt_eq_ld, harg2.read_unread, harg3.read_unread, harg4.read_unread, harg5.read_unread, View.ld_unit_zero (S := S1x4096x128) hz3, View.ld_unit_zero (S := S128x16) hz2, View.ld_unit_zero (S := S128x128) hz2]
  rfl

variable (m : (ℓ : Loc nD τ sig) → Buf (Elt F) ℓ)

/-- At every point the output block is the body's arithmetic of the tile, the second weight's block and what the two
    buffers hold after that point. -/
theorem out_eq (c : Dev nD) (t : Fin cfg0.N) :
    (outsAt0 m c t.val t.isLt).1
      = k0_pay4 (tile (grid0.coords t) (iblk m c 0 t)) (iblk m c 2 t) (outsAt0 m c t.val t.isLt).2.1 (outsAt0 m c t.val t.isLt).2.2 := by
  by_cases h0 : t.val % 16 = 0
  · rw [outsAt0_A m c t h0]
    dsimp only
    rw [keys_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t), values_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)]
    exact block_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)
  · rw [outsAt0_B m c t h0]
    dsimp only
    unfold sout0_B_0 sout0_B_1
    exact block_later c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (iblk m c 3 t) _ _

end Pieces

/-! ## Where the blocks sit in the arrays -/

section Reads

variable (m : (ℓ : Loc nD τ sig) → Buf (Elt Ideal) ℓ)

/-- The index maps and the tile's offset, decided over the grid. -/
theorem idx_facts : ∀ t : Fin cfg0.N, win0_0.index t (0 : Fin 3) = t.val / 16 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ k0_off1 (grid0.coords t) (0 : Fin 3) = 0 ∧ k0_off1 (grid0.coords t) (1 : Fin 3) = (t.val % 16) * 256 ∧ k0_off1 (grid0.coords t) (2 : Fin 3) = 0 :=
  (by decide +kernel : ∀ t : Fin grid0.N, _)

/-- The first window's block at a point is the point's batch of the flattened input. -/
theorem iblk0_apply (c : Dev nD) (t : Fin cfg0.N) (h : t.val < 64) (p : Fin 4096) (cc : Fin 128) :
    iblk m c 0 t (ix3 0 p cc) = V m c main_v0 (ix3 (batchOf t.val h) p cc) := by
  obtain ⟨e0, e1, e2, -⟩ := idx_facts t
  show V m c main_v0 (((cfg0.win 0).blk t).view.emb (ix3 0 p cc)) = V m c main_v0 (ix3 (batchOf t.val h) p cc)
  refine congrArg (V m c main_v0) (funext fun a => Fin.ext ?_)
  match a with
  | ⟨0, _⟩ => show win0_0.index t (0 : Fin 3) * 1 + 1 * 0 = t.val / 16; omega
  | ⟨1, _⟩ => show win0_0.index t (1 : Fin 3) * 4096 + 1 * p.val = p.val; omega
  | ⟨2, _⟩ => show win0_0.index t (2 : Fin 3) * 128 + 1 * cc.val = cc.val; omega

/-- The weights' blocks are the whole weights at every point. -/
theorem iblk1_eq (c : Dev nD) (t : Fin cfg0.N) (j : S128x16.Idx) : iblk m c 1 t j = V m c main_arg1 j := by
  obtain ⟨-, -, -, e0, e1, -⟩ := idx_facts t
  show V m c main_arg1 (((cfg0.win 1).blk t).view.emb j) = V m c main_arg1 j
  refine congrArg (V m c main_arg1) (funext fun a => Fin.ext ?_)
  match a with
  | ⟨0, _⟩ => show win0_1.index t (0 : Fin 2) * 128 + 1 * (j 0).val = (j 0).val; omega
  | ⟨1, _⟩ => show win0_1.index t (1 : Fin 2) * 16 + 1 * (j 1).val = (j 1).val; omega

theorem iblk2_eq (c : Dev nD) (t : Fin cfg0.N) (j : S128x16.Idx) : iblk m c 2 t j = V m c main_arg2 j := by
  obtain ⟨-, -, -, -, -, e0, e1, -⟩ := idx_facts t
  show V m c main_arg2 (((cfg0.win 2).blk t).view.emb j) = V m c main_arg2 j
  refine congrArg (V m c main_arg2) (funext fun a => Fin.ext ?_)
  match a with
  | ⟨0, _⟩ => show win0_2.index t (0 : Fin 2) * 128 + 1 * (j 0).val = (j 0).val; omega
  | ⟨1, _⟩ => show win0_2.index t (1 : Fin 2) * 16 + 1 * (j 1).val = (j 1).val; omega

theorem iblk3_eq (c : Dev nD) (t : Fin cfg0.N) (j : S128x128.Idx) : iblk m c 3 t j = V m c main_arg3 j := by
  obtain ⟨-, -, -, -, -, -, -, e0, e1, -⟩ := idx_facts t
  show V m c main_arg3 (((cfg0.win 3).blk t).view.emb j) = V m c main_arg3 j
  refine congrArg (V m c main_arg3) (funext fun a => Fin.ext ?_)
  match a with
  | ⟨0, _⟩ => show win0_3.index t (0 : Fin 2) * 128 + 1 * (j 0).val = (j 0).val; omega
  | ⟨1, _⟩ => show win0_3.index t (1 : Fin 2) * 128 + 1 * (j 1).val = (j 1).val; omega

/-- The tile's row r is the block's row (n mod 16) * 256 + r. -/
theorem tile_apply (t : Fin cfg0.N) (h : t.val < 64) (x0 : Vec Ideal S1x4096x128 .f32) (r : Fin 256) (cc : Fin 128) :
    tile (grid0.coords t) x0 (ix3 0 r cc) = x0 (ix3 0 (colOf t.val h r) cc) := by
  obtain ⟨-, -, -, -, -, -, -, -, -, o0, o1, o2⟩ := idx_facts t
  show x0 ((Rect.unit (s := S1x4096x128) (k0_off1 (grid0.coords t)) S1x256x128.size (k0_off1_inb (grid0.coords t))).emb (ix3 0 r cc)) = _
  refine congrArg x0 (funext fun a => Fin.ext ?_)
  match a with
  | ⟨0, _⟩ => show k0_off1 (grid0.coords t) (0 : Fin 3) + 1 * 0 = 0; omega
  | ⟨1, _⟩ => show k0_off1 (grid0.coords t) (1 : Fin 3) + 1 * r.val = (t.val % 16) * 256 + r.val; omega
  | ⟨2, _⟩ => show k0_off1 (grid0.coords t) (2 : Fin 3) + 1 * cc.val = cc.val; omega

end Reads

/-! ## The two buffers point by point, and the output blocks -/

section Invariant

variable (m : (ℓ : Loc nD τ sig) → Buf (Elt Ideal) ℓ)

/-- At the first point of a batch the two buffers hold f and hv of that batch. -/
theorem buffers_first (c : Dev nD) (t : Fin cfg0.N) (h : t.val < 64) (h0 : t.val % 16 = 0) :
    (∀ (p : Fin 4096) (d : Fin 16), (outsAt0 m c t.val t.isLt).2.1 (ix2 p d) = fq (V m c main_v0) (V m c main_arg1) (batchOf t.val h) p d)
    ∧ (∀ (p : Fin 4096) (e : Fin 128), (outsAt0 m c t.val t.isLt).2.2 (ix2 p e) = hv (V m c main_v0) (V m c main_arg3) (batchOf t.val h) p e) := by
  have eK : (outsAt0 m c t.val t.isLt).2.1 = k0_pay2 (iblk m c 0 t) (iblk m c 1 t) := by
    rw [outsAt0_A m c t h0]
    dsimp only
    exact keys_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)
  have eV : (outsAt0 m c t.val t.isLt).2.2 = k0_pay3 (iblk m c 0 t) (iblk m c 3 t) := by
    rw [outsAt0_A m c t h0]
    dsimp only
    exact values_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)
  constructor
  · intro p d
    rw [eK, Pay.pay2_apply]
    unfold fq
    exact Finset.sum_congr rfl fun cc _ => by rw [iblk0_apply m c t h p cc, iblk1_eq m c t]
  · intro p e'
    rw [eV, Pay.pay3_apply]
    unfold hv
    exact Finset.sum_congr rfl fun cc _ => by rw [iblk0_apply m c t h p cc, iblk3_eq m c t]

/-- After every point the two buffers hold f and hv of the point's batch. -/
theorem buffers (c : Dev nD) (n : ℕ) : ∀ (hn : n < cfg0.N) (h : n < 64),
    (∀ (p : Fin 4096) (d : Fin 16), (outsAt0 m c n hn).2.1 (ix2 p d) = fq (V m c main_v0) (V m c main_arg1) (batchOf n h) p d)
    ∧ (∀ (p : Fin 4096) (e : Fin 128), (outsAt0 m c n hn).2.2 (ix2 p e) = hv (V m c main_v0) (V m c main_arg3) (batchOf n h) p e) := by
  induction n with
  | zero => intro hn h; exact buffers_first m c ⟨0, hn⟩ h (Nat.zero_mod 16)
  | succ k ih =>
    intro hn h
    by_cases h0 : (k + 1) % 16 = 0
    · exact buffers_first m c ⟨k + 1, hn⟩ h h0
    · have e := outsAt0_B m c ⟨k + 1, hn⟩ h0
      obtain ⟨ihK, ihV⟩ := ih (Nat.lt_of_succ_lt hn) (by omega)
      have hb : batchOf k (by omega) = batchOf (k + 1) h := Fin.ext (by show k / 16 = (k + 1) / 16; omega)
      have eK : (outsAt0 m c (k + 1) hn).2.1 = (outsAt0 m c k (Nat.lt_of_succ_lt hn)).2.1 :=
        (congrArg (fun z => z.2.1) e).trans rfl
      have eV : (outsAt0 m c (k + 1) hn).2.2 = (outsAt0 m c k (Nat.lt_of_succ_lt hn)).2.2 :=
        (congrArg (fun z => z.2.2) e).trans rfl
      constructor
      · intro p d; rw [eK, ihK p d, hb]
      · intro p e'; rw [eV, ihV p e', hb]

/-- What every grid point leaves in the output block: column r of point n is column (n mod 16) * 256 + r of batch n / 16
    of the attention array of the arrays the region found. -/
theorem blocks_are_att (c : Dev nD) (t : Fin cfg0.N) (h : t.val < 64) (c' : Fin 128) (r : Fin 256) :
    (outsAt0 (F := Ideal) m c t.val t.isLt).1 (ix3 0 c' r)
      = Cert.Attn.att (V (F := Ideal) m c main_v0) (V (F := Ideal) m c main_arg1) (V (F := Ideal) m c main_arg2) (V (F := Ideal) m c main_arg3)
          (Cert.Attn.batchOf t.val h) c' (Cert.Attn.colOf t.val h r) := by
  obtain ⟨hK, hV⟩ := buffers m c t.val t.isLt h
  rw [out_eq m c t, Pay.pay4_apply, att_eq_rowAtt]
  have hq : (fun d : Fin 16 => ∑ cc : Fin 128, tile (grid0.coords t) (iblk m c 0 t) (ix3 0 r cc) * iblk m c 2 t (ix2 cc d))
      = fun d => gk (V m c main_v0) (V m c main_arg2) (batchOf t.val h) (colOf t.val h r) d := by
    funext d
    unfold gk
    exact Finset.sum_congr rfl fun cc _ => by rw [tile_apply t h, iblk0_apply m c t h, iblk2_eq m c t]
  have hk : (fun (n : Fin 4096) (d : Fin 16) => (outsAt0 m c t.val t.isLt).2.1 (ix2 n d))
      = fun n d => fq (V m c main_v0) (V m c main_arg1) (batchOf t.val h) n d := by
    funext n d; exact hK n d
  have hv' : (fun n : Fin 4096 => (outsAt0 m c t.val t.isLt).2.2 (ix2 n c'))
      = fun n => hv (V m c main_v0) (V m c main_arg3) (batchOf t.val h) n c' := by
    funext n; exact hV n c'
  exact congr (congr (congrArg rowAtt hq) hk) hv'

end Invariant

end Cert.Attn.Blocks

end
-- ==== Proof.Final.lean ====
/-
  From the output blocks to the whole attention array, and from there through the host tail to the kernel's result.
-/
import proofs.«165051_j42838003810703_2_alg».proof.Proof.Gen.KernelIdeal.Frame
import proofs.«165051_j42838003810703_2_alg».proof.Proof.Spec
import proofs.«165051_j42838003810703_2_alg».proof.Proof.Tail
import Idealize.ShloMosaic.Lib.Pipeline.Value
import Idealize.ShloMosaic.Lib.StableHlo.Run

noncomputable section

open scoped BigOperators

namespace Cert.Attn.Final

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ) (ρ : Dev nD → PrngReg)

/-- What every grid point leaves in the output block: column r of point n is column colOf n r of batch batchOf n. -/
def BlocksAreAtt (c : Dev nD) : Prop :=
  ∀ (t : Fin cfg0.N) (h : t.val < 64) (c' : Fin 128) (r : Fin 256),
    (outsAt0 (F := Ideal) m c t.val t.isLt).1 (ix3 0 c' r)
      = Cert.Attn.att (V (F := Ideal) m c main_v0) (V (F := Ideal) m c main_arg1) (V (F := Ideal) m c main_arg2) (V (F := Ideal) m c main_arg3)
          (Cert.Attn.batchOf t.val h) c' (Cert.Attn.colOf t.val h r)

/-! ## From the blocks to the array -/

/-- The output window's block index at point number t is (t / 16, 0, t mod 16). -/
theorem blockIndex : ∀ t : Fin cfg0.N, win0_4.index t (0 : Fin 3) = t.val / 16
    ∧ win0_4.index t (1 : Fin 3) = 0
    ∧ win0_4.index t (2 : Fin 3) = t.val % 16 :=
  (by decide +kernel : ∀ t : Fin grid0.N, win0_4.index t (0 : Fin 3) = t.val / 16
    ∧ win0_4.index t (1 : Fin 3) = 0
    ∧ win0_4.index t (2 : Fin 3) = t.val % 16)

/-- What point t writes back is block t of the attention array of the arrays the region found. -/
theorem flushed_eq (c : Dev nD) (hout : BlocksAreAtt m c) (t : Fin cfg0.N) :
    (dats (F := Ideal) m 0 c).flushed 4 t
      = ((cfg0.win 4).blk t).view.read (Elt Ideal)
          (Cert.Attn.attArr (V (F := Ideal) m c main_v0) (V (F := Ideal) m c main_arg1) (V (F := Ideal) m c main_arg2) (V (F := Ideal) m c main_arg3)) := by
  show (cfg0.win 4).cut (grid0.coords t) ((dats (F := Ideal) m 0 c).after 4 t) = _
  rw [after0_4]
  have hN : t.val < 64 := lt_of_lt_of_eq t.isLt N_0
  obtain ⟨e0, e1, e2⟩ := blockIndex t
  funext j
  have hj0 : (j 0).val < 1 := (j 0).isLt
  have hj1 : (j 1).val < 128 := (j 1).isLt
  have hj2 : (j 2).val < 256 := (j 2).isLt
  have hy : (cfg0.win 4).xinj (grid0.coords t) j = ix3 (0 : Fin 1) (⟨(j 1).val, hj1⟩ : Fin 128) (⟨(j 2).val, hj2⟩ : Fin 256) := by
    funext a; apply Fin.ext
    match a with
    | ⟨0, _⟩ => show (j 0).val = 0; omega
    | ⟨1, _⟩ => rfl
    | ⟨2, _⟩ => rfl
  have hemb : ((cfg0.win 4).blk t).view.emb j
      = ix3 (Cert.Attn.batchOf t.val hN) (⟨(j 1).val, hj1⟩ : Fin 128) (Cert.Attn.colOf t.val hN ⟨(j 2).val, hj2⟩) := by
    funext a; apply Fin.ext
    match a with
    | ⟨0, _⟩ => show win0_4.index t (0 : Fin 3) * 1 + 1 * (j 0).val = t.val / 16; omega
    | ⟨1, _⟩ => show win0_4.index t (1 : Fin 3) * 128 + 1 * (j 1).val = (j 1).val; omega
    | ⟨2, _⟩ => show win0_4.index t (2 : Fin 3) * 256 + 1 * (j 2).val = t.val % 16 * 256 + (j 2).val; omega
  show (outsAt0 (F := Ideal) m c t.val t.isLt).1 ((cfg0.win 4).xinj (grid0.coords t) j)
    = Cert.Attn.attArr _ _ _ _ (((cfg0.win 4).blk t).view.emb j)
  rw [hy, hemb, hout t hN ⟨(j 1).val, hj1⟩ ⟨(j 2).val, hj2⟩]
  rfl

/-- An index of the array is in point t's block iff each coordinate is in the block's range on its axis. -/
theorem mem_blk (t : Fin cfg0.N) (i : S4x128x4096.Idx) :
    i ∈ ((cfg0.win 4).blk t).view.set ↔ ∀ a : Fin 3, win0_4.index t a * S1x128x256.size a ≤ (i a).val ∧ (i a).val < win0_4.index t a * S1x128x256.size a + S1x128x256.size a := by
  show i ∈ ((View.whole main_v1).slice (win0_4.rect t)).set ↔ _
  rw [View.set_slice_whole, Rect.mem_set_unit]
  exact Iff.rfl

/-- Every index (b, c', k) of the array lies in the block of point number 16 b + k / 256. -/
theorem cover (i : S4x128x4096.Idx) :
    ∃ t : Fin cfg0.N, (cfg0.win 4).flush t = true ∧ i ∈ ((cfg0.win 4).blk t).view.set := by
  have hi0 : (i 0).val < 4 := (i 0).isLt
  have hi1 : (i 1).val < 128 := (i 1).isLt
  have hi2 : (i 2).val < 4096 := (i 2).isLt
  have hN : cfg0.N = 64 := N_0
  let t : Fin cfg0.N := ⟨(i 0).val * 16 + (i 2).val / 256, by rw [hN]; omega⟩
  have ht : t.val = (i 0).val * 16 + (i 2).val / 256 := rfl
  obtain ⟨e0, e1, e2⟩ := blockIndex t
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 128 ≤ (i 1).val ∧ (i 1).val < win0_4.index t (1 : Fin 3) * 128 + 128; omega
  | ⟨2, _⟩ => show win0_4.index t (2 : Fin 3) * 256 ≤ (i 2).val ∧ (i 2).val < win0_4.index t (2 : Fin 3) * 256 + 256; omega

/-- The output array after the region is the attention array of the arrays the region found. -/
theorem final4 (c : Dev nD) (hout : BlocksAreAtt m c) :
    (dats (F := Ideal) m 0 c).arrAt 4 cfg0.N
      = Cert.Attn.attArr (V (F := Ideal) m c main_v0) (V (F := Ideal) m c main_arg1) (V (F := Ideal) m c main_arg2) (V (F := Ideal) m c main_arg3) :=
  (dats (F := Ideal) m 0 c).arrAt_eq_of_cover 4 _ (fun t _ => flushed_eq m c hout t) cover

/-! ## The host operations around the region -/

/-- The flattened input the region finds is the launch input re-read as [4, 4096, 128]. -/
theorem V_main_v0 (c : Dev nD) :
    V (F := Ideal) m c main_v0
      = shapeCast S4x4096x128 (m ((c.tc : Thread nD τ).loc main_arg0)) shapeCasts_S4x64x64x128_S4x4096x128 := by
  show StableHlo.after hostOps0 (fun b => m (c, b)) (Proc.devRef .tc main_v0) = _
  after_results
  rfl

/-- The result buffer after the operations that follow the region. -/
theorem tail_value (c : Dev nD) (hout : BlocksAreAtt m c) :
    Pipeline.afterTail₀ cfgs (dats (F := Ideal) m) 0 (V0 m) [hostOps1] c main_v5
      = Cert.Attn.tail shapeCasts_S4x128x4096_S4x64x64x128 bcast_S_S4x64x64x128
          (Cert.Attn.attArr (shapeCast S4x4096x128 (m ((c.tc : Thread nD τ).loc main_arg0)) shapeCasts_S4x64x64x128_S4x4096x128)
            (m ((c.tc : Thread nD τ).loc main_arg1)) (m ((c.tc : Thread nD τ).loc main_arg2)) (m ((c.tc : Thread nD τ).loc main_arg3)))
          (m ((c.tc : Thread nD τ).loc main_arg4)) (m ((c.tc : Thread nD τ).loc main_arg0)) := by
  have e4 : Pipeline.withArrays (cfgs 0).spec c (V0 m c) (fun w => (dats (F := Ideal) m 0 c).arrAt w (cfgs 0).N) (Proc.devRef .tc main_arg4)
      = m ((c.tc : Thread nD τ).loc main_arg4) :=
    (Pipeline.withArrays_of_ne _ c (V0 m c) _ main_arg4 (by exact (by decide : ∀ w, Pipeline.arrRef spec0 w ≠ main_arg4))).trans (V_main_arg4 m c)
  have e0 : Pipeline.withArrays (cfgs 0).spec c (V0 m c) (fun w => (dats (F := Ideal) m 0 c).arrAt w (cfgs 0).N) (Proc.devRef .tc main_arg0)
      = m ((c.tc : Thread nD τ).loc main_arg0) :=
    (Pipeline.withArrays_of_ne _ c (V0 m c) _ main_arg0 (by exact (by decide : ∀ w, Pipeline.arrRef spec0 w ≠ main_arg0))).trans (V_main_arg0 m c)
  have e1 : Pipeline.withArrays (cfgs 0).spec c (V0 m c) (fun w => (dats (F := Ideal) m 0 c).arrAt w (cfgs 0).N) (Proc.devRef .tc main_v1)
      = Cert.Attn.attArr (shapeCast S4x4096x128 (m ((c.tc : Thread nD τ).loc main_arg0)) shapeCasts_S4x64x64x128_S4x4096x128)
            (m ((c.tc : Thread nD τ).loc main_arg1)) (m ((c.tc : Thread nD τ).loc main_arg2)) (m ((c.tc : Thread nD τ).loc main_arg3)) :=
    (Pipeline.withArrays_arr spec0 launch0.win.arr_inj c _ _ 4).trans
      ((final4 m c hout).trans (by rw [V_main_v0, V_main_arg1, V_main_arg2, V_main_arg3]))
  unfold Pipeline.afterTail₀
  show StableHlo.after hostOps1 _ (Proc.devRef .tc main_v5) = _
  after_results
  rw [e4, e0, e1]
  rfl

/-- The kernel program's run: its result is the tail of the attention array of the flattened input, the arguments unchanged. -/
theorem run_value (hout : ∀ c, BlocksAreAtt m c) :
    θ_run (defs (F := Ideal)) (onTc (τ := τ) (main (F := Ideal))) ⟨m, fun _ => 0, ρ⟩ (fun r => ∀ c : Dev nD,
      r.2.mem ((c.tc : Thread nD τ).loc main_v5)
          = Cert.Attn.tail shapeCasts_S4x128x4096_S4x64x64x128 bcast_S_S4x64x64x128
              (Cert.Attn.attArr (shapeCast S4x4096x128 (m ((c.tc : Thread nD τ).loc main_arg0)) shapeCasts_S4x64x64x128_S4x4096x128)
                (m ((c.tc : Thread nD τ).loc main_arg1)) (m ((c.tc : Thread nD τ).loc main_arg2)) (m ((c.tc : Thread nD τ).loc main_arg3)))
              (m ((c.tc : Thread nD τ).loc main_arg4)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v5 (Pipeline.mem_restRefs_of main_v5 (by decide) (by decide))).trans (tail_value m c (hout c)),
      ((h c).2 main_arg0 (Pipeline.mem_restRefs_of main_arg0 (by decide) (by decide))).trans (W_main_arg0 m (dats m) c),
      ((h c).1 1).trans (((dats (F := Ideal) m 0 c).arrAt_in 1 rfl _).trans ((A_eq m c 1).trans (V_main_arg1 m c))),
      ((h c).1 2).trans (((dats (F := Ideal) m 0 c).arrAt_in 2 rfl _).trans ((A_eq m c 2).trans (V_main_arg2 m c))),
      ((h c).1 3).trans (((dats (F := Ideal) m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.Attn.Final

end
-- ==== Proof.Claims.lean ====
/-
  The five claims.

  The three frames: the two kernel programs' are the generated frame proofs; the reference has no kernel, its frame is its
  generated run with the result dropped. The idealization rewrote nothing, so there is nothing to preserve.

  The two idealized programs end with equal results. Both end with the same three host operations applied to an
  attention array [4, 128, 4096] (re-read as [4, 64, 64, 128], scaled by gamma, added to the input): the kernel's array is
  assembled from its 64 output blocks, each holding its columns of the attention array of the flattened input; the
  reference's attention stage is the same array, read index by index. The two sides differ only in how the sums are
  tiled and in the order of the two factors of a product, so no property of the inputs is used.
-/
import proofs.«165051_j42838003810703_2_alg».proof.Defs
import proofs.«165051_j42838003810703_2_alg».proof.Proof.Gen.Kernel.Frame
import proofs.«165051_j42838003810703_2_alg».proof.Proof.Gen.KernelIdeal.Frame
import proofs.«165051_j42838003810703_2_alg».proof.Proof.Gen.ReferenceIdeal.Run
import proofs.«165051_j42838003810703_2_alg».proof.Proof.Gen.ReferenceIdeal.Read
import proofs.«165051_j42838003810703_2_alg».proof.Proof.Gen.Pre_finite_inputs
import proofs.«165051_j42838003810703_2_alg».proof.Proof.Spec
import proofs.«165051_j42838003810703_2_alg».proof.Proof.Tail
import proofs.«165051_j42838003810703_2_alg».proof.Proof.RefAtt
import proofs.«165051_j42838003810703_2_alg».proof.Proof.Blocks
import proofs.«165051_j42838003810703_2_alg».proof.Proof.Final

noncomputable section

open Idealize.ShloMosaic Idealize.ShloMosaic.TcCoe Idealize.SL.Sem

namespace Cert.Proof.Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's result is the common tail of its attention stage, which is the attention array of the flattened input. -/
theorem ref_tail (x0 : (⟨Cert.ReferenceIdeal.S4x64x64x128, .f32⟩ : BufTy).Contents (Elt Ideal))
    (x1 x2 : (⟨Cert.ReferenceIdeal.S128x16, .f32⟩ : BufTy).Contents (Elt Ideal))
    (x3 : (⟨Cert.ReferenceIdeal.S128x128, .f32⟩ : BufTy).Contents (Elt Ideal))
    (x4 : (⟨Cert.ReferenceIdeal.S_, .f32⟩ : BufTy).Contents (Elt Ideal)) :
    Cert.ReferenceIdeal.Read.val_main_v20 (F := Ideal) x0 x1 x2 x3 x4
      = Cert.Attn.tail Cert.ReferenceIdeal.Facts₀.shapeCasts_S4x128x4096_S4x64x64x128 Cert.ReferenceIdeal.Facts₀.bcast_S_S4x64x64x128
          (Cert.Attn.attArr (shapeCast Cert.ReferenceIdeal.S4x4096x128 x0 Cert.ReferenceIdeal.Facts₀.shapeCasts_S4x64x64x128_S4x4096x128) x1 x2 x3) x4 x0 := by
  unfold Cert.ReferenceIdeal.Read.val_main_v20 Cert.ReferenceIdeal.Read.val_main_v19 Cert.ReferenceIdeal.Read.val_main_v18
    Cert.ReferenceIdeal.Read.val_main_v17
  rw [Cert.Attn.Ref.val_main_v16_eq_attArr]
  rfl

/-- The two idealized programs end with the same result: the common tail of the attention array of the flattened input. -/
theorem algebraic : Cert.algebraic_KernelIdeal_ReferenceIdeal := by
  intro m ρ m' ρ' _ hagree
  refine ⟨_, Cert.Attn.Final.run_value m ρ (fun c => Cert.Attn.Blocks.blocks_are_att m c), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, ref_tail, (hagree c).1, (hagree c).2.1, (hagree c).2.2.1, (hagree c).2.2.2.1,
    (hagree c).2.2.2.2]

end Cert.Proof.Claims

end
-- ==== Proof.lean ====
/- The proof of `Cert.Claim`: a fused self-attention kernel (projections, softmax over the row index, weighted sum of
   the values, written transposed) against its plain reference, equal on the extended reals.
   Proof/Spec.lean states the attention array as one function of the flattened input and the three weights; Proof/Tail.lean
   the host operations both programs end with; Proof/Pay.lean reads the kernel body's stored values at an index (over the
   matrix-product lemmas of Proof/LibStdMatmul.lean, Proof/LibTrMatmul.lean, Proof/LibMatmul.lean, Proof/LibDotStd.lean);
   Proof/Blocks.lean shows what each grid point leaves in its output block; Proof/Final.lean assembles the blocks into the
   array and runs the tail; Proof/RefAtt.lean reads the reference's attention stage; Proof/Claims.lean states the five
   claims, assembled here behind the witnesses of the programs' stated facts. -/
import proofs.«165051_j42838003810703_2_alg».proof.Defs
import proofs.«165051_j42838003810703_2_alg».proof.Proof.Claims
import proofs.«165051_j42838003810703_2_alg».proof.Proof.Gen.Kernel
import proofs.«165051_j42838003810703_2_alg».proof.Proof.Gen.KernelIdeal
import proofs.«165051_j42838003810703_2_alg».proof.Proof.Gen.ReferenceIdeal
import proofs.«165051_j42838003810703_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
